-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) (main_arg2 : FVec F S8x4096x64 .f32) (main_arg3 : IVec S8x4096x4096 1) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  main_v13
-- ==== Kernel.lean ====
abbrev S8x4096x64 : Shape := ⟨3, ![8, 4096, 64]⟩
abbrev S8x4096x4096 : Shape := ⟨3, ![8, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S4096x64 : Shape := ⟨2, ![4096, 64]⟩
abbrev S4096 : Shape := ⟨1, ![4096]⟩
abbrev S4096x1 : Shape := ⟨2, ![4096, 1]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .i1⟩
  | .hbm, ⟨4, _⟩ => ⟨S8x4096x4096, .i32⟩
  | .hbm, ⟨5, _⟩ => ⟨S8x4096x64, .f32⟩
  | .hbm, ⟨6, _⟩ => ⟨S8x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x256x4096, .i32⟩
  | .local _ .vmem, ⟨7, _⟩ => ⟨S1x256x4096, .i32⟩
  | .local _ .vmem, ⟨8, _⟩ => ⟨S1x256x64, .f32⟩
  | .local _ .vmem, ⟨9, _⟩ => ⟨S1x256x64, .f32⟩
  | .local _ .vmem, ⟨10, _⟩ => ⟨S1x256x4096, .f32⟩
  | .local _ .vmem, ⟨11, _⟩ => ⟨S1x256x4096, .f32⟩
  | .local _ .vmem, ⟨12, _⟩ => ⟨S4096x64, .bf16⟩
  | .local _ .vmem, ⟨13, _⟩ => ⟨S4096x64, .bf16⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x64_S256 : S256x64.Reduces [1] S256
  shapeCasts_S256_S256x1 : S256.ShapeCasts S256x1
  broadcasts_S256x1_S256x64 : S256x1.Broadcasts S256x64
  reduces_S256x4096_S256 : S256x4096.Reduces [1] S256
  broadcasts_S256x1_S256x4096 : S256x1.Broadcasts S256x4096
  shapeCasts_S256x4096_S1x256x4096 : S256x4096.ShapeCasts S1x256x4096
  shapeCasts_S256x64_S1x256x64 : S256x64.ShapeCasts S1x256x64
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x4096x64.size a
  hwx0_0 : ∀ i : grid0.Coords, EltTy.bits .f32 = 32 ∨ (Rect.block (s := S8x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S8x4096x64.size a
  hwx0_2 : ∀ i : grid0.Coords, EltTy.bits .f32 = 32 ∨ (Rect.block (s := S8x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x4096x4096.size a
  hwx0_3 : ∀ i : grid0.Coords, EltTy.bits .i32 = 32 ∨ (Rect.block (s := S8x4096x4096) S1x256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S8x4096x64.size a
  hwx0_4 : ∀ i : grid0.Coords, EltTy.bits .f32 = 32 ∨ (Rect.block (s := S8x4096x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S8x4096x4096.size a
  hwx0_5 : ∀ i : grid0.Coords, EltTy.bits .f32 = 32 ∨ (Rect.block (s := S8x4096x4096) S1x256x4096.size (cc0_transform_5 i) (hinb0_5 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .i1⟩
  | .hbm, ⟨4, _⟩ => ⟨S8x4096x64, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x64, .f32⟩
  | .hbm, ⟨13, _⟩ => ⟨S8x4096x64, .f32⟩
  | .hbm, ⟨14, _⟩ => ⟨S8x4096x64, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x64, .f32⟩
  | .hbm, ⟨23, _⟩ => ⟨S8x4096x64, .f32⟩
  | .hbm, ⟨24, _⟩ => ⟨S8x4096x4096, .f32⟩
  | .hbm, ⟨25, _⟩ => ⟨S_, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_call2_v0 : Ref sig .tc := ⟨.hbm, 26, rfl⟩
abbrev main_call2_v1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]

class Facts₀ : Prop where
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x64_0_1_2 : S8x4096x1.BroadcastsInDim S8x4096x64 (![0, 1, 2] : Fin 3 → Fin S8x4096x64.rank)
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S8x4096x1_S8x4096x4096_0_1_2 : S8x4096x1.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Spec.lean ====
/-
  Masked cosine attention, one query row at a time, on the extended reals.

  A row `x` of 64 features is scaled to `x / (‖x‖ + ε)`, `‖x‖ = sqrt (Σ x²)`. The score of a query row against key `j` is the
  inner product of the two scaled rows, or −∞ where the mask is set; the attention weight of key `j` is
  `exp (s j − max s) / Σ exp (s j' − max s)`, the maximum folded from −∞ over all 4096 keys; the output row is the
  weights' combination of the 4096 value rows. Every operation is the exact one of the ideal values
  (`Ideal.div`, `Ideal.sqrt`, `Ideal.exp`), the two literals are kept as their words.
-/
import Idealize.ShloMosaic.PureOps.Ideal
import Idealize.ShloMosaic.Lib.ValueIdx

noncomputable section

namespace Cert.Attn

open Idealize.ShloMosaic
open scoped BigOperators

/-- The ε added to a row's norm: the f32 nearest to 1e-10. -/
def eps : EReal := Ideal.ofBits .f32 0x2EDBE6FF#32

/-- The score of a masked key: the f32 −∞. -/
def ninf : EReal := Ideal.ofBits .f32 0xFF800000#32

/-- A row of 64 features scaled by its norm plus ε. -/
def unit (x : Fin 64 → EReal) (d : Fin 64) : EReal :=
  Ideal.div (x d) (Ideal.sqrt (∑ e : Fin 64, x e * x e) + eps)

/-- The score of query row `qr` against key `j`: the inner product of the scaled rows, −∞ where the mask bit is set. -/
def score (qr : Fin 64 → EReal) (keys : Fin 4096 → Fin 64 → EReal) (mr : Fin 4096 → BitVec 1) (j : Fin 4096) : EReal :=
  Scalar.select (mr j) ninf (∑ d : Fin 64, unit qr d * unit (keys j) d)

/-- The largest score of the row, folded from −∞. -/
def top (qr : Fin 64 → EReal) (keys : Fin 4096 → Fin 64 → EReal) (mr : Fin 4096 → BitVec 1) : EReal :=
  (Finset.univ : Finset (Fin 4096)).fold max ninf (score qr keys mr)

/-- The unnormalised weight of key `j`. -/
def wexp (qr : Fin 64 → EReal) (keys : Fin 4096 → Fin 64 → EReal) (mr : Fin 4096 → BitVec 1) (j : Fin 4096) : EReal :=
  Ideal.exp (score qr keys mr j - top qr keys mr)

/-- The attention weight of key `j`: the softmax of the row's scores. -/
def attn (qr : Fin 64 → EReal) (keys : Fin 4096 → Fin 64 → EReal) (mr : Fin 4096 → BitVec 1) (j : Fin 4096) : EReal :=
  Ideal.div (wexp qr keys mr j) (∑ j' : Fin 4096, wexp qr keys mr j')

/-- The output row: the weights' combination of the value rows. -/
def out (qr : Fin 64 → EReal) (keys vals : Fin 4096 → Fin 64 → EReal) (mr : Fin 4096 → BitVec 1) (d : Fin 64) : EReal :=
  ∑ j : Fin 4096, attn qr keys mr j * vals j d

end Cert.Attn

end
-- ==== Proof.Whole.lean ====
/-
  Masked cosine attention over whole arrays: eight batches of 4096 query rows against the 4096 keys and value rows of their own
  batch. Entry `(b, i, j)` of the weights is the attention weight of key `j` for query row `(b, i)`, masked by row `(b, i)`
  of the mask; entry `(b, i, d)` of the output is feature `d` of that query row's output.
-/
import proofs.«176599_j18605798326652_2_alg».proof.Proof.Spec

noncomputable section

namespace Cert.Attn

open Idealize.ShloMosaic Idealize.ShloMosaic.ValueIdx

/-- The attention weights of every query row of every batch. -/
def wholeAttn (q k : (⟨3, ![8, 4096, 64]⟩ : Shape).Idx → EReal) (msk : (⟨3, ![8, 4096, 4096]⟩ : Shape).Idx → BitVec 1) :
    (⟨3, ![8, 4096, 4096]⟩ : Shape).Idx → EReal :=
  fun i => attn (fun d => q (ix3 (i 0) (i 1) d)) (fun j d => k (ix3 (i 0) j d)) (fun j => msk (ix3 (i 0) (i 1) j)) (i 2)

/-- The attention output of every query row of every batch. -/
def wholeOut (q k v : (⟨3, ![8, 4096, 64]⟩ : Shape).Idx → EReal) (msk : (⟨3, ![8, 4096, 4096]⟩ : Shape).Idx → BitVec 1) :
    (⟨3, ![8, 4096, 64]⟩ : Shape).Idx → EReal :=
  fun i => out (fun d => q (ix3 (i 0) (i 1) d)) (fun j d => k (ix3 (i 0) j d)) (fun j d => v (ix3 (i 0) j d))
    (fun j => msk (ix3 (i 0) (i 1) j)) (i 2)

end Cert.Attn

end
-- ==== Proof.RefRows.lean ====
/-
  The reference program read one query row at a time: its attention weights and its output row are those of
  masked cosine attention on the extended reals.
-/
import proofs.«176599_j18605798326652_2_alg».proof.Proof.Gen.ReferenceIdeal.Read
import proofs.«176599_j18605798326652_2_alg».proof.Proof.Spec
import Idealize.ShloMosaic.PureOps.Ideal.Laws
import Idealize.ShloMosaic.PureOps.Reduce
import Idealize.ShloMosaic.Lib.ValueIdx
import Mathlib.Data.Finset.Fold

noncomputable section

namespace Cert.RefRows

open Idealize.ShloMosaic Idealize.ShloMosaic.ValueIdx Cert.ReferenceIdeal Cert.ReferenceIdeal.Read
open scoped BigOperators

/-! ## The scaled rows -/

/-- The norm-plus-ε of query row (b, i), read at the kept unit axis. -/
theorem normQ_apply (q : (⟨S8x4096x64, .f32⟩ : BufTy).Contents (Elt Ideal)) (b : Fin 8) (i : Fin 4096) (z : Fin 1) :
    val_main_v2 (F := Ideal) q (ix3 b i z)
      = Ideal.sqrt (∑ e : Fin 64, q (ix3 b i e) * q (ix3 b i e)) + Cert.Attn.eps := by
  rw [val_main_v2_apply, val_main_v0_apply, val_main_call0_v2_apply, val_main_call0_v1_apply, val_main_v1_apply,
    val_main_cst_apply, val_main_call0_cst_apply]
  simp only [Ideal.addf_def, Ideal.hostUnary_sqrt_def, Ideal.ofBits_def, Ideal.ofBits_zero_f32, zero_add,
    val_main_call0_v0_apply, Ideal.mulf_def]
  unfold Cert.Attn.eps
  refine congrArg (fun s => Ideal.sqrt s + _) (Finset.sum_congr rfl fun e _ => ?_)
  have h : idx_main_call0_v1 (idx_main_call0_v2 (ix3 b i z)) e = ix3 b i e :=
    funext fun a => Fin.ext (by match a with | ⟨0, _⟩ => rfl | ⟨1, _⟩ => rfl | ⟨2, _⟩ => rfl)
  rw [h]

/-- The scaled query row: stage 4 of the program at (b, i, d) is the unit row of q's row (b, i) at d. -/
theorem unitQ_apply (q : (⟨S8x4096x64, .f32⟩ : BufTy).Contents (Elt Ideal)) (b : Fin 8) (i : Fin 4096) (d : Fin 64) :
    val_main_v4 (F := Ideal) q (ix3 b i d) = Cert.Attn.unit (fun e => q (ix3 b i e)) d := by
  have h : idx_main_v3 (ix3 b i d) = ix3 b i (0 : Fin 1) :=
    funext fun a => Fin.ext (by match a with | ⟨0, _⟩ => rfl | ⟨1, _⟩ => rfl | ⟨2, _⟩ => rfl)
  rw [val_main_v4_apply, val_main_v3_apply, h, normQ_apply, Ideal.hostDivf_def]
  rfl

/-- The norm-plus-ε of key row (b, j), read at the kept unit axis. -/
theorem normK_apply (k : (⟨S8x4096x64, .f32⟩ : BufTy).Contents (Elt Ideal)) (b : Fin 8) (j : Fin 4096) (z : Fin 1) :
    val_main_v7 (F := Ideal) k (ix3 b j z)
      = Ideal.sqrt (∑ e : Fin 64, k (ix3 b j e) * k (ix3 b j e)) + Cert.Attn.eps := by
  rw [val_main_v7_apply, val_main_v5_apply, val_main_call1_v2_apply, val_main_call1_v1_apply, val_main_v6_apply,
    val_main_cst_0_apply, val_main_call1_cst_apply]
  simp only [Ideal.addf_def, Ideal.hostUnary_sqrt_def, Ideal.ofBits_def, Ideal.ofBits_zero_f32, zero_add,
    val_main_call1_v0_apply, Ideal.mulf_def]
  unfold Cert.Attn.eps
  refine congrArg (fun s => Ideal.sqrt s + _) (Finset.sum_congr rfl fun e _ => ?_)
  have h : idx_main_call1_v1 (idx_main_call1_v2 (ix3 b j z)) e = ix3 b j e :=
    funext fun a => Fin.ext (by match a with | ⟨0, _⟩ => rfl | ⟨1, _⟩ => rfl | ⟨2, _⟩ => rfl)
  rw [h]

/-- The scaled key row: stage 9 of the program at (b, j, d) is the unit row of k's row (b, j) at d. -/
theorem unitK_apply (k : (⟨S8x4096x64, .f32⟩ : BufTy).Contents (Elt Ideal)) (b : Fin 8) (j : Fin 4096) (d : Fin 64) :
    val_main_v9 (F := Ideal) k (ix3 b j d) = Cert.Attn.unit (fun e => k (ix3 b j e)) d := by
  have h : idx_main_v8 (ix3 b j d) = ix3 b j (0 : Fin 1) :=
    funext fun a => Fin.ext (by match a with | ⟨0, _⟩ => rfl | ⟨1, _⟩ => rfl | ⟨2, _⟩ => rfl)
  rw [val_main_v9_apply, val_main_v8_apply, h, normK_apply, Ideal.hostDivf_def]
  rfl

/-! ## The scores -/

/-- Stage 11 at (b, i, j) is the score of query row (b, i) against key j: the inner product of the two scaled rows,
    −∞ where the mask bit is set. -/
theorem score_apply (q k : (⟨S8x4096x64, .f32⟩ : BufTy).Contents (Elt Ideal))
    (msk : (⟨S8x4096x4096, .i1⟩ : BufTy).Contents (Elt Ideal)) (b : Fin 8) (i j : Fin 4096) :
    val_main_v11 (F := Ideal) q k msk (ix3 b i j)
      = Cert.Attn.score (fun d => q (ix3 b i d)) (fun j' d => k (ix3 b j' d)) (fun j' => msk (ix3 b i j')) j := by
  rw [val_main_v11_apply, val_main_call2_v1_apply, val_main_call2_v0_apply, val_main_cst_1_apply, val_main_v10_apply,
    Ideal.ofBits_def]
  unfold Cert.Attn.score Cert.Attn.ninf
  refine congrArg (Scalar.select _ _) (Finset.sum_congr rfl fun d _ => ?_)
  have hl : lidx_main_v10 (ix3 b i j) d = ix3 b i d :=
    funext fun a => Fin.ext (by match a with | ⟨0, _⟩ => rfl | ⟨1, _⟩ => rfl | ⟨2, _⟩ => rfl)
  have hr : ridx_main_v10 (ix3 b i j) d = ix3 b j d :=
    funext fun a => Fin.ext (by match a with | ⟨0, _⟩ => rfl | ⟨1, _⟩ => rfl | ⟨2, _⟩ => rfl)
  rw [hl, hr, unitQ_apply, unitK_apply]

/-! ## The row maximum -/

/-- Stage 14 at (b, i) is the largest score of query row (b, i): the maximum-reduction over the key axis is the fold of
    `max` from −∞ over the 4096 keys, and taking the maximum with −∞ once more changes nothing. -/
theorem top_apply (q k : (⟨S8x4096x64, .f32⟩ : BufTy).Contents (Elt Ideal))
    (msk : (⟨S8x4096x4096, .i1⟩ : BufTy).Contents (Elt Ideal)) (b : Fin 8) (i : Fin 4096) :
    val_main_v14 (F := Ideal) q k msk (ix2 b i)
      = Cert.Attn.top (fun d => q (ix3 b i d)) (fun j' d => k (ix3 b j' d)) (fun j' => msk (ix3 b i j')) := by
  have h : S8x4096x4096.Reduces [2] S8x4096 := by decide
  have h12 : val_main_v12 (F := Ideal) q k msk (ix2 b i)
      = Cert.Attn.top (fun d => q (ix3 b i d)) (fun j' d => k (ix3 b j' d)) (fun j' => msk (ix3 b i j')) := by
    unfold val_main_v12
    rw [Host.reduce_eq_fold_single (FloatOps.maximumf (F := Ideal) (φ := .f32)) _ _ Gen.reducesTo_S8x4096x4096_S8x4096_d2 h Gen.h_S_,
      val_main_cst_2_apply, Ideal.ofBits_def]
    unfold Cert.Attn.top Cert.Attn.ninf
    have hf : (val_main_v11 (F := Ideal) q k msk ∘ h.lift (ix2 b i))
        = Cert.Attn.score (fun d => q (ix3 b i d)) (fun j' d => k (ix3 b j' d)) (fun j' => msk (ix3 b i j')) :=
      funext fun j => by
        have hj : h.lift (ix2 b i) j = ix3 b i (⟨j.val, j.isLt⟩ : Fin 4096) :=
          funext fun a => Fin.ext (by match a with | ⟨0, _⟩ => rfl | ⟨1, _⟩ => rfl | ⟨2, _⟩ => rfl)
        show val_main_v11 (F := Ideal) q k msk (h.lift (ix2 b i) j) = _
        rw [hj, score_apply]
        rfl
    rw [hf]
    rfl
  rw [val_main_v14_apply, val_main_v13_apply, val_main_cst_3_apply, h12, Ideal.maximumf_def, Ideal.ofBits_def]
  unfold Cert.Attn.top Cert.Attn.ninf
  exact max_eq_right ((Finset.le_fold_max _).mpr (Or.inl le_rfl))

/-! ## The weights and the output -/

/-- Stage 18 at (b, i, j) is the unnormalised weight of key j: the exponential of the score less the row's maximum. -/
theorem wexp_apply (q k : (⟨S8x4096x64, .f32⟩ : BufTy).Contents (Elt Ideal))
    (msk : (⟨S8x4096x4096, .i1⟩ : BufTy).Contents (Elt Ideal)) (b : Fin 8) (i j : Fin 4096) :
    val_main_v18 (F := Ideal) q k msk (ix3 b i j)
      = Cert.Attn.wexp (fun d => q (ix3 b i d)) (fun j' d => k (ix3 b j' d)) (fun j' => msk (ix3 b i j')) j := by
  have h : idx_main_v15 (idx_main_v16 (ix3 b i j)) = ix2 b i :=
    funext fun a => Fin.ext (by match a with | ⟨0, _⟩ => rfl | ⟨1, _⟩ => rfl)
  rw [val_main_v18_apply, val_main_v17_apply, val_main_v16_apply, val_main_v15_apply, h, top_apply, score_apply,
    Ideal.hostUnary_exp_def, Ideal.subf_def]
  rfl

/-- Stage 21 at (b, i, j) is the sum of the row's unnormalised weights, whatever j. -/
theorem wsum_apply (q k : (⟨S8x4096x64, .f32⟩ : BufTy).Contents (Elt Ideal))
    (msk : (⟨S8x4096x4096, .i1⟩ : BufTy).Contents (Elt Ideal)) (b : Fin 8) (i j : Fin 4096) :
    val_main_v21 (F := Ideal) q k msk (ix3 b i j)
      = ∑ j' : Fin 4096, Cert.Attn.wexp (fun d => q (ix3 b i d)) (fun j' d => k (ix3 b j' d)) (fun j' => msk (ix3 b i j')) j' := by
  have h : idx_main_v20 (idx_main_v21 (ix3 b i j)) = ix2 b i :=
    funext fun a => Fin.ext (by match a with | ⟨0, _⟩ => rfl | ⟨1, _⟩ => rfl)
  rw [val_main_v21_apply, val_main_v20_apply, h, val_main_v19_apply, val_main_cst_4_apply, Ideal.ofBits_def,
    Ideal.ofBits_zero_f32, zero_add]
  refine Finset.sum_congr rfl fun j' _ => ?_
  have hj : idx_main_v19 (ix2 b i) j' = ix3 b i j' :=
    funext fun a => Fin.ext (by match a with | ⟨0, _⟩ => rfl | ⟨1, _⟩ => rfl | ⟨2, _⟩ => rfl)
  rw [hj, wexp_apply]

/-- Stage 22 at (b, i, j) is the attention weight of key j for query row (b, i). -/
theorem weights_apply (q k : (⟨S8x4096x64, .f32⟩ : BufTy).Contents (Elt Ideal))
    (msk : (⟨S8x4096x4096, .i1⟩ : BufTy).Contents (Elt Ideal)) (b : Fin 8) (i j : Fin 4096) :
    val_main_v22 (F := Ideal) q k msk (ix3 b i j)
      = Cert.Attn.attn (fun d => q (ix3 b i d)) (fun j' d => k (ix3 b j' d)) (fun j' => msk (ix3 b i j')) j := by
  rw [val_main_v22_apply, wexp_apply, wsum_apply, Ideal.hostDivf_def]
  rfl

/-- Stage 23 at (b, i, d) is the output row of query row (b, i) at feature d: the weights' combination of the value rows. -/
theorem output_apply (q k v : (⟨S8x4096x64, .f32⟩ : BufTy).Contents (Elt Ideal))
    (msk : (⟨S8x4096x4096, .i1⟩ : BufTy).Contents (Elt Ideal)) (b : Fin 8) (i : Fin 4096) (d : Fin 64) :
    val_main_v23 (F := Ideal) q k v msk (ix3 b i d)
      = Cert.Attn.out (fun d' => q (ix3 b i d')) (fun j' d' => k (ix3 b j' d')) (fun j' d' => v (ix3 b j' d'))
          (fun j' => msk (ix3 b i j')) d := by
  rw [val_main_v23_apply]
  unfold Cert.Attn.out
  refine Finset.sum_congr rfl fun j _ => ?_
  have hl : lidx_main_v23 (ix3 b i d) j = ix3 b i j :=
    funext fun a => Fin.ext (by match a with | ⟨0, _⟩ => rfl | ⟨1, _⟩ => rfl | ⟨2, _⟩ => rfl)
  have hr : ridx_main_v23 (ix3 b i d) j = ix3 b j d :=
    funext fun a => Fin.ext (by match a with | ⟨0, _⟩ => rfl | ⟨1, _⟩ => rfl | ⟨2, _⟩ => rfl)
  rw [hl, hr, weights_apply]

end Cert.RefRows

end
-- ==== Proof.Pieces.lean ====
/-
  What one grid point's body leaves behind, as functions of what it loaded.

  The body runs in one of two ways. At the first query tile of a batch it stores the scaled key rows and the value rows into
  the two scratch buffers and reads them straight back; at every other tile it reads what the scratch buffers already hold.
  Either way each buffer it writes is stored whole by ONE store, so what the buffer ends holding is that store's value:
  the scratch buffers the scaled keys and the values, the weight tile the softmax of the scores against the keys in use,
  the output tile the weights times the values in use. These hold for any float values.
-/
import proofs.«176599_j18605798326652_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the first scratch buffer ends holding the scaled key rows. -/
theorem keys_A (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x256x4096 .i32) (harg5 : arg5.IsWhole) (arg6 : Memref sig .tc .vmem S1x256x64 .f32) (harg6 : arg6.IsWhole) (arg7 : Memref sig .tc .vmem S1x256x4096 .f32) (harg7 : arg7.IsWhole) (arg8 : Memref sig .tc .vmem S4096x64 .bf16) (harg8 : arg8.IsWhole) (arg9 : Memref sig .tc .vmem S4096x64 .bf16) (harg9 : arg9.IsWhole) (hc : cond0_0 i) (x0 : Vec F S1x256x64 .f32) (x1 : Vec F S1x4096x64 .f32) (x2 : Vec F S1x4096x64 .f32) (x3 : Vec F S1x256x4096 .i32) :
    sout0_A_0 c i arg2 harg2 arg3 harg3 arg4 harg4 arg5 harg5 arg6 harg6 arg7 harg7 arg8 harg8 arg9 harg9 hc x0 x1 x2 x3 = k0_pay2 x1 := by
  unfold sout0_A_0
  rw [View.read_writes_eq_canon _ _ _ (scover0_A_0 c i arg2 harg2 arg3 harg3 arg4 harg4 arg5 harg5 arg6 harg6 arg7 harg7 arg8 harg8 arg9 harg9 hc x0 x1 x2 x3)]
  unfold kernelRun0_A
  dsimp only
  sl_unfold_words
  rw [View.canon_unit_zero hz2]
  simp only [View.readAt_eq_ld, harg3.read_unread, View.ld_unit_zero (S := S1x4096x64) hz3]

/-- First tile of a batch: the second scratch buffer ends holding the value rows. -/
theorem vals_A (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x256x4096 .i32) (harg5 : arg5.IsWhole) (arg6 : Memref sig .tc .vmem S1x256x64 .f32) (harg6 : arg6.IsWhole) (arg7 : Memref sig .tc .vmem S1x256x4096 .f32) (harg7 : arg7.IsWhole) (arg8 : Memref sig .tc .vmem S4096x64 .bf16) (harg8 : arg8.IsWhole) (arg9 : Memref sig .tc .vmem S4096x64 .bf16) (harg9 : arg9.IsWhole) (hc : cond0_0 i) (x0 : Vec F S1x256x64 .f32) (x1 : Vec F S1x4096x64 .f32) (x2 : Vec F S1x4096x64 .f32) (x3 : Vec F S1x256x4096 .i32) :
    sout0_A_1 c i arg2 harg2 arg3 harg3 arg4 harg4 arg5 harg5 arg6 harg6 arg7 harg7 arg8 harg8 arg9 harg9 hc x0 x1 x2 x3 = k0_pay3 x2 := by
  unfold sout0_A_1
  rw [View.read_writes_eq_canon _ _ _ (scover0_A_1 c i arg2 harg2 arg3 harg3 arg4 harg4 arg5 harg5 arg6 harg6 arg7 harg7 arg8 harg8 arg9 harg9 hc x0 x1 x2 x3)]
  unfold kernelRun0_A
  dsimp only
  sl_unfold_words
  rw [View.canon_unit_zero hz2]
  simp only [View.readAt_eq_ld, harg4.read_unread, View.ld_unit_zero (S := S1x4096x64) hz3]

/-- First tile of a batch: the weight tile is the softmax of the scores against the keys just scaled. -/
theorem weights_A (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x256x4096 .i32) (harg5 : arg5.IsWhole) (arg6 : Memref sig .tc .vmem S1x256x64 .f32) (harg6 : arg6.IsWhole) (arg7 : Memref sig .tc .vmem S1x256x4096 .f32) (harg7 : arg7.IsWhole) (arg8 : Memref sig .tc .vmem S4096x64 .bf16) (harg8 : arg8.IsWhole) (arg9 : Memref sig .tc .vmem S4096x64 .bf16) (harg9 : arg9.IsWhole) (hc : cond0_0 i) (x0 : Vec F S1x256x64 .f32) (x1 : Vec F S1x4096x64 .f32) (x2 : Vec F S1x4096x64 .f32) (x3 : Vec F S1x256x4096 .i32) :
    out0_A_5 c i arg2 harg2 arg3 harg3 arg4 harg4 arg5 harg5 arg6 harg6 arg7 harg7 arg8 harg8 arg9 harg9 hc x0 x1 x2 x3 = k0_pay5 x0 x3 (k0_pay2 x1) := by
  unfold out0_A_5
  rw [View.read_writes_eq_canon _ _ _ (cover0_A_5 c i arg2 harg2 arg3 harg3 arg4 harg4 arg5 harg5 arg6 harg6 arg7 harg7 arg8 harg8 arg9 harg9 hc x0 x1 x2 x3)]
  unfold kernelRun0_A
  dsimp only
  sl_unfold_words
  rw [View.canon_unit_zero hz3, View.readCov_unit_zero (S := S4096x64) _ hz2]
  simp only [View.readAt_eq_ld, harg2.read_unread, harg3.read_unread, harg5.read_unread,
    View.ld_unit_zero (S := S1x256x64) hz3, View.ld_unit_zero (S := S1x4096x64) hz3,
    View.ld_unit_zero (S := S1x256x4096) hz3]

/-- First tile of a batch: the output tile is those weights times the values just stored. -/
theorem outs_A (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x256x4096 .i32) (harg5 : arg5.IsWhole) (arg6 : Memref sig .tc .vmem S1x256x64 .f32) (harg6 : arg6.IsWhole) (arg7 : Memref sig .tc .vmem S1x256x4096 .f32) (harg7 : arg7.IsWhole) (arg8 : Memref sig .tc .vmem S4096x64 .bf16) (harg8 : arg8.IsWhole) (arg9 : Memref sig .tc .vmem S4096x64 .bf16) (harg9 : arg9.IsWhole) (hc : cond0_0 i) (x0 : Vec F S1x256x64 .f32) (x1 : Vec F S1x4096x64 .f32) (x2 : Vec F S1x4096x64 .f32) (x3 : Vec F S1x256x4096 .i32) :
    out0_A_4 c i arg2 harg2 arg3 harg3 arg4 harg4 arg5 harg5 arg6 harg6 arg7 harg7 arg8 harg8 arg9 harg9 hc x0 x1 x2 x3 = k0_pay1 (k0_pay6 x0 x3 (k0_pay2 x1)) (k0_pay3 x2) := by
  unfold out0_A_4
  rw [View.read_writes_eq_canon _ _ _ (cover0_A_4 c i arg2 harg2 arg3 harg3 arg4 harg4 arg5 harg5 arg6 harg6 arg7 harg7 arg8 harg8 arg9 harg9 hc x0 x1 x2 x3)]
  unfold kernelRun0_A
  dsimp only
  sl_unfold_words
  rw [View.canon_unit_zero hz3, View.readCov_unit_zero (S := S4096x64) _ hz2,
    View.readCov_unit_zero (S := S4096x64) _ hz2]
  simp only [View.readAt_eq_ld, harg2.read_unread, harg3.read_unread, harg4.read_unread, harg5.read_unread,
    View.ld_unit_zero (S := S1x256x64) hz3, View.ld_unit_zero (S := S1x4096x64) hz3,
    View.ld_unit_zero (S := S1x256x4096) hz3]

/-- A later tile: the weight tile is the softmax of the scores against the keys the first scratch buffer holds. -/
theorem weights_B (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x256x4096 .i32) (harg5 : arg5.IsWhole) (arg6 : Memref sig .tc .vmem S1x256x64 .f32) (harg6 : arg6.IsWhole) (arg7 : Memref sig .tc .vmem S1x256x4096 .f32) (harg7 : arg7.IsWhole) (arg8 : Memref sig .tc .vmem S4096x64 .bf16) (harg8 : arg8.IsWhole) (arg9 : Memref sig .tc .vmem S4096x64 .bf16) (harg9 : arg9.IsWhole) (hc : ¬cond0_0 i) (x0 : Vec F S1x256x64 .f32) (x1 : Vec F S1x4096x64 .f32) (x2 : Vec F S1x4096x64 .f32) (x3 : Vec F S1x256x4096 .i32) (xs0 : Vec F S4096x64 .bf16) (xs1 : Vec F S4096x64 .bf16) :
    out0_B_5 c i arg2 harg2 arg3 harg3 arg4 harg4 arg5 harg5 arg6 harg6 arg7 harg7 arg8 harg8 arg9 harg9 hc x0 x1 x2 x3 xs0 xs1 = k0_pay5 x0 x3 xs0 := by
  unfold out0_B_5
  rw [View.read_writes_eq_canon _ _ _ (cover0_B_5 c i arg2 harg2 arg3 harg3 arg4 harg4 arg5 harg5 arg6 harg6 arg7 harg7 arg8 harg8 arg9 harg9 hc x0 x1 x2 x3 xs0 xs1)]
  unfold kernelRun0_B
  dsimp only
  sl_unfold_words
  rw [View.canon_unit_zero hz3]
  simp only [View.readAt_eq_ld, harg2.read_unread, harg5.read_unread, harg8.read_unread,
    View.ld_unit_zero (S := S1x256x64) hz3, View.ld_unit_zero (S := S1x256x4096) hz3,
    View.ld_unit_zero (S := S4096x64) hz2]

/-- A later tile: the output tile is those weights times the values the second scratch buffer holds. -/
theorem outs_B (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x256x4096 .i32) (harg5 : arg5.IsWhole) (arg6 : Memref sig .tc .vmem S1x256x64 .f32) (harg6 : arg6.IsWhole) (arg7 : Memref sig .tc .vmem S1x256x4096 .f32) (harg7 : arg7.IsWhole) (arg8 : Memref sig .tc .vmem S4096x64 .bf16) (harg8 : arg8.IsWhole) (arg9 : Memref sig .tc .vmem S4096x64 .bf16) (harg9 : arg9.IsWhole) (hc : ¬cond0_0 i) (x0 : Vec F S1x256x64 .f32) (x1 : Vec F S1x4096x64 .f32) (x2 : Vec F S1x4096x64 .f32) (x3 : Vec F S1x256x4096 .i32) (xs0 : Vec F S4096x64 .bf16) (xs1 : Vec F S4096x64 .bf16) :
    out0_B_4 c i arg2 harg2 arg3 harg3 arg4 harg4 arg5 harg5 arg6 harg6 arg7 harg7 arg8 harg8 arg9 harg9 hc x0 x1 x2 x3 xs0 xs1 = k0_pay1 (k0_pay6 x0 x3 xs0) xs1 := by
  unfold out0_B_4
  rw [View.read_writes_eq_canon _ _ _ (cover0_B_4 c i arg2 harg2 arg3 harg3 arg4 harg4 arg5 harg5 arg6 harg6 arg7 harg7 arg8 harg8 arg9 harg9 hc x0 x1 x2 x3 xs0 xs1)]
  unfold kernelRun0_B
  dsimp only
  sl_unfold_words
  rw [View.canon_unit_zero hz3]
  simp only [View.readAt_eq_ld, harg2.read_unread, harg5.read_unread, harg8.read_unread, harg9.read_unread,
    View.ld_unit_zero (S := S1x256x64) hz3, View.ld_unit_zero (S := S1x256x4096) hz3,
    View.ld_unit_zero (S := S4096x64) hz2]

end Cert.KernelIdeal.Pieces
end
-- ==== Proof.Carry.lean ====
/-
  What the staging buffers and the two scratch buffers hold after each grid point.

  The 128 points run batch by batch, sixteen query tiles to a batch. The first tile of a batch stores the scaled key rows and
  the value rows of its batch into the scratch buffers; the fifteen tiles after it store nothing there, so the buffers still
  hold what the tile before left. At every tile the weight tile is the softmax of the scores against the keys the first
  scratch buffer holds after that tile, and the output tile those weights times the rows the second one holds. These hold for
  any float values.
-/
import proofs.«176599_j18605798326652_2_alg».proof.Proof.Pieces

set_option maxRecDepth 16384

noncomputable section
open Idealize.ShloMosaic Idealize.ShloMosaic.TcCoe Idealize.SL.Sem
open Idealize.ShloMosaic.Pipeline (Dat)
namespace Cert.KernelIdeal.Carry
open Cert.KernelIdeal Cert.KernelIdeal.Gen
variable {F : FTy → Type} [FloatOps F]
variable (m : (ℓ : Loc nD τ sig) → Buf (Elt F) ℓ)

/-- After the first tile of a batch: the output tile, the weight tile, the scaled keys and the values, each the body's own
    function of the four blocks the tile loaded. -/
theorem first_tile (c : Dev nD) (t : Fin cfg0.N) (h0 : t.val % 16 = 0) :
    outsAt0 m c t.val t.isLt
      = (k0_pay1 (k0_pay6 (iblk m c 0 t) (iblk m c 3 t) (k0_pay2 (iblk m c 1 t))) (k0_pay3 (iblk m c 2 t)),
         k0_pay5 (iblk m c 0 t) (iblk m c 3 t) (k0_pay2 (iblk m c 1 t)),
         k0_pay2 (iblk m c 1 t),
         k0_pay3 (iblk m c 2 t)) :=
  (outsAt0_A m c t h0).trans
    (congrArg₂ Prod.mk (Pieces.outs_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t))
      (congrArg₂ Prod.mk (Pieces.weights_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t))
        (congrArg₂ Prod.mk (Pieces.keys_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t))
          (Pieces.vals_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)))))

/-- After a later tile: the two tiles computed against what the scratch buffers held after the tile before, and the scratch
    buffers as that tile left them. -/
theorem later_tile (c : Dev nD) (t : Fin cfg0.N) (h0 : ¬t.val % 16 = 0) :
    outsAt0 m c t.val t.isLt
      = (k0_pay1 (k0_pay6 (iblk m c 0 t) (iblk m c 3 t) (outsAt0 m c (t.val - 1) (Nat.lt_of_le_of_lt (Nat.sub_le _ _) t.isLt)).2.2.1) (outsAt0 m c (t.val - 1) (Nat.lt_of_le_of_lt (Nat.sub_le _ _) t.isLt)).2.2.2,
         k0_pay5 (iblk m c 0 t) (iblk m c 3 t) (outsAt0 m c (t.val - 1) (Nat.lt_of_le_of_lt (Nat.sub_le _ _) t.isLt)).2.2.1,
         (outsAt0 m c (t.val - 1) (Nat.lt_of_le_of_lt (Nat.sub_le _ _) t.isLt)).2.2.1,
         (outsAt0 m c (t.val - 1) (Nat.lt_of_le_of_lt (Nat.sub_le _ _) t.isLt)).2.2.2) :=
  (outsAt0_B m c t h0).trans
    (congrArg₂ Prod.mk (Pieces.outs_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2)
      (congrArg₂ Prod.mk (Pieces.weights_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2)
        (congrArg₂ Prod.mk rfl rfl)))

/-- At every tile the two output tiles are computed against the scratch buffers' contents after that same tile. -/
theorem tiles (c : Dev nD) (t : Fin cfg0.N) :
    (outsAt0 m c t.val t.isLt).1
        = k0_pay1 (k0_pay6 (iblk m c 0 t) (iblk m c 3 t) (outsAt0 m c t.val t.isLt).2.2.1) (outsAt0 m c t.val t.isLt).2.2.2
    ∧ (outsAt0 m c t.val t.isLt).2.1
        = k0_pay5 (iblk m c 0 t) (iblk m c 3 t) (outsAt0 m c t.val t.isLt).2.2.1 := by
  by_cases h0 : t.val % 16 = 0
  · rw [first_tile m c t h0]
    exact ⟨rfl, rfl⟩
  · rw [later_tile m c t h0]
    exact ⟨rfl, rfl⟩

end Cert.KernelIdeal.Carry
end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibLaneMax.lean ====
/-
  General lemmas: a maximum along the last axis of a matrix read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.LibPlainDot.lean ====
/-
  A plain matrix product read at an index.

  The dimension numbers of `[a, K] × [K, b] → [a, b]` — contract the left operand's axis 1 with the right operand's axis 0,
  no batch axis — are those of a kernel's `tpu.matmul` of two matrices and of the host's `dot_general` of two matrices
  alike. On the extended reals either product, read at `(p, q)`, is the sum over `k` of `l (p, k) · r (k, q)` (plus the
  accumulator's entry for the kernel's form); the two lemmas on the operand indices say which entries a contraction
  position reads.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the plain product `[a, K] × [K, b] → [a, b]`, over any witness of their well-formedness. -/
abbrev plainDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem plainDot_lhs_row (i : (⟨2, ![a, b]⟩ : Shape).Idx) (κ : (plainDot wf).contr.Idx) :
    ((plainDot wf).lhsIdx i κ 0).val = (i 0).val := by
  unfold DotDims.lhsIdx
  rw [dif_neg (show ¬(0 : Fin (Shape.rank ⟨2, ![a, K]⟩)) ∈ (plainDot wf).lhsBatch from List.not_mem_nil),
    dif_pos (show (0 : Fin (Shape.rank ⟨2, ![a, K]⟩)) ∈ (plainDot wf).lhsNonContracting from List.mem_singleton.mpr rfl)]
  rfl

/-- and the right operand at the result's column. -/
theorem plainDot_rhs_col (i : (⟨2, ![a, b]⟩ : Shape).Idx) (κ : (plainDot wf).contr.Idx) :
    ((plainDot wf).rhsIdx i κ 1).val = (i 1).val := by
  unfold DotDims.rhsIdx
  rw [dif_neg (show ¬(1 : Fin (Shape.rank ⟨2, ![K, b]⟩)) ∈ (plainDot wf).rhsBatch from List.not_mem_nil),
    dif_pos (show (1 : Fin (Shape.rank ⟨2, ![K, b]⟩)) ∈ (plainDot wf).rhsNonContracting from List.mem_singleton.mpr rfl)]
  rfl

/-- At result index `(p, q)` and contraction position `k` the left operand is read at `(p, k)`. -/
theorem plainDot_lhsIdx (p : Fin a) (q : Fin b) (k : Fin K) :
    (plainDot wf).lhsIdx (ix2 p q) ((contrEquiv1 (plainDot wf) K rfl rfl).symm k) = ix2 p k :=
  funext fun ax => Fin.ext (by
    match ax with
    | ⟨0, _⟩ => exact plainDot_lhs_row wf _ _
    | ⟨1, _⟩ =>
      exact ((plainDot wf).lhsIdx_val_of_single rfl _ _).trans (contrEquiv1_symm_val (plainDot wf) K rfl rfl k))

/-- … and the right operand at `(k, q)`. -/
theorem plainDot_rhsIdx (p : Fin a) (q : Fin b) (k : Fin K) :
    (plainDot wf).rhsIdx (ix2 p q) ((contrEquiv1 (plainDot wf) K rfl rfl).symm k) = ix2 k q :=
  funext fun ax => Fin.ext (by
    match ax with
    | ⟨0, _⟩ =>
      exact ((plainDot wf).rhsIdx_val_of_single rfl _ _).trans (contrEquiv1_symm_val (plainDot wf) K rfl rfl k)
    | ⟨1, _⟩ => exact plainDot_rhs_col wf _ _)

/-- The contraction of a plain product at `(p, q)`, re-indexed by the contracted coordinate. -/
theorem plainDot_sum {φ₁ φ₂ : FTy} (l : FVec Ideal ⟨2, ![a, K]⟩ φ₁) (r : FVec Ideal ⟨2, ![K, b]⟩ φ₂) (p : Fin a) (q : Fin b) :
    (∑ k : (plainDot wf).contr.Idx, l ((plainDot wf).lhsIdx (ix2 p q) k) * r ((plainDot wf).rhsIdx (ix2 p q) k))
      = ∑ k : Fin K, l (ix2 p k) * r (ix2 k q) := by
  rw [← Equiv.sum_comp (contrEquiv1 (plainDot wf) K rfl rfl).symm]
  refine Finset.sum_congr rfl fun k _ => ?_
  rw [plainDot_lhsIdx, plainDot_rhsIdx]

/-- A `tpu.matmul` of two matrices at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (plainDot wf) prec l r acc (ix2 p q) = acc (ix2 p q) + ∑ k : Fin K, l (ix2 p k) * r (ix2 k q) := by
  rw [Ideal.matmul_apply, plainDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (plainDot wf) prec l r (constant ⟨2, ![a, b]⟩ .f32 0x00000000#32) (ix2 p q)
      = ∑ k : Fin K, l (ix2 p k) * r (ix2 k q) := by
  rw [Ideal.matmul_constant_zero_apply, plainDot_sum]

/-- The host's `dot_general` of two matrices at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (plainDot wf) prec sched l r (ix2 p q) = ∑ k : Fin K, l (ix2 p k) * r (ix2 k q) := by
  rw [Ideal.dotGeneral_apply, plainDot_sum]

end Cert.Lib

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.Payload.lean ====
/-
  The kernel's arithmetic, read at an index on the extended reals.

  Each store of the kernel body writes one pure function of the blocks it loaded. Here those functions are read entry by entry:
  the scaled key rows `K / (‖K‖ + ε)` the first point of a batch leaves in the first scratch buffer, the value rows it leaves in
  the second, the 256 × 4096 tile of attention weights (scores against the scaled keys, −∞ under the mask, softmax along the
  keys), and the 256 × 64 output tile, the weights times the value rows. A change of float format is the identity here, a
  lane reduction a finite sum or a fold of max, a matrix product a finite sum of products.
-/
import proofs.«176599_j18605798326652_2_alg».proof.Proof.Gen.KernelIdeal.Skeleton
import proofs.«176599_j18605798326652_2_alg».proof.Proof.Spec
import proofs.«176599_j18605798326652_2_alg».proof.Proof.LibKeepdims
import proofs.«176599_j18605798326652_2_alg».proof.Proof.LibLaneMax
import proofs.«176599_j18605798326652_2_alg».proof.Proof.LibPlainDot
import proofs.«176599_j18605798326652_2_alg».proof.Proof.LibRowsDot
import Idealize.ShloMosaic.Lib.ValueLayout
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx Cert.Attn
open scoped BigOperators

/-- The rows of an `[a, 64]` matrix, each divided by its norm plus ε (the lane sum of squares, its square root kept as a
    unit column, ε added, the column spread back over the row): entry `(p, d)` is the scaled row `p` at `d`. -/
theorem scaled_apply {a : ℕ} (X : FVec Ideal ⟨2, ![a, 64]⟩ .f32)
    (hR : (⟨2, ![a, 64]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, 64]⟩)
    (p : Fin a) (d : Fin 64) :
    divf X (broadcastTo ⟨2, ![a, 64]⟩ (addf (sqrt (shapeCast ⟨2, ![a, 1]⟩
        (multiReduction .add [1] ⟨1, ![a]⟩ (mulf X X) 0x00000000#32 hR hφ hacc) hc))
        (broadcast ⟨2, ![a, 1]⟩ (Scalar.ofBits (F := Ideal) .f32 0x2EDBE6FF#32))) hb) (ix2 p d)
      = unit (fun e => X (ix2 p e)) d := by
  rw [divf_apply, broadcastTo_a1_ab_apply, addf_apply]
  show Ideal.div _ (Ideal.sqrt (shapeCast _ _ hc (ix2 p (0 : Fin 1))) + _) = _
  rw [shapeCast_a_a1_apply, laneSum_ab_apply]
  rfl

/-- The softmax along the rows of an `[a, b]` matrix of scores (the lane maximum from −∞ kept as a unit column and spread
    back, the difference exponentiated, the lane sum of that kept as a unit column and spread back, the quotient): entry
    `(p, q)` is `exp (s q − max s) / Σ exp (s k − max s)` over the row `s` of scores. -/
theorem softmax_apply {a b : ℕ} (Sc : FVec Ideal ⟨2, ![a, b]⟩ .f32)
    (hR : (⟨2, ![a, b]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf Sc (broadcastTo ⟨2, ![a, b]⟩ (shapeCast ⟨2, ![a, 1]⟩
          (multiReduction .maximumf [1] ⟨1, ![a]⟩ Sc 0xFF800000#32 hR hφ hm) hc) hb)))
        (broadcastTo ⟨2, ![a, b]⟩ (shapeCast ⟨2, ![a, 1]⟩
          (multiReduction .add [1] ⟨1, ![a]⟩ (exp (subf Sc (broadcastTo ⟨2, ![a, b]⟩ (shapeCast ⟨2, ![a, 1]⟩
            (multiReduction .maximumf [1] ⟨1, ![a]⟩ Sc 0xFF800000#32 hR hφ hm) hc) hb))) 0x00000000#32 hR hφ' hs) hc) hb)
        (ix2 p q)
      = Ideal.div (Ideal.exp (Sc (ix2 p q) - (Finset.univ : Finset (Fin b)).fold max ninf (fun k => Sc (ix2 p k))))
          (∑ k : Fin b, Ideal.exp (Sc (ix2 p k) - (Finset.univ : Finset (Fin b)).fold max ninf (fun k' => Sc (ix2 p k')))) := by
  have hE : ∀ k : Fin b, exp (subf Sc (broadcastTo ⟨2, ![a, b]⟩ (shapeCast ⟨2, ![a, 1]⟩
          (multiReduction .maximumf [1] ⟨1, ![a]⟩ Sc 0xFF800000#32 hR hφ hm) hc) hb)) (ix2 p k)
      = Ideal.exp (Sc (ix2 p k) - (Finset.univ : Finset (Fin b)).fold max ninf (fun k' => Sc (ix2 p k'))) := by
    intro k
    show Ideal.exp (Sc (ix2 p k) - broadcastTo _ _ hb (ix2 p k)) = _
    rw [broadcastTo_a1_ab_apply, shapeCast_a_a1_apply, laneMax_ab_apply]
    rfl
  rw [divf_apply, hE, broadcastTo_a1_ab_apply, shapeCast_a_a1_apply, laneSum_ab_apply]
  exact congrArg _ (Finset.sum_congr rfl fun k _ => hE k)

/-- The first scratch buffer's contents: row `j` of the key block divided by its norm plus ε. -/
theorem pay2_apply (x1 : Vec Ideal S1x4096x64 .f32) (j : Fin 4096) (d : Fin 64) :
    k0_pay2 (F := Ideal) x1 (ix2 j d) = unit (fun e => x1 (ix3 (0 : Fin 1) j e)) d := by
  unfold k0_pay2
  rw [shapeCast_self]
  refine (scaled_apply (a := 4096) (shapeCast S4096x64 x1 shapeCasts_S1x4096x64_S4096x64) _ _ _ _ _ j d).trans ?_
  exact congrArg (fun f => unit f d) (funext fun e => shapeCast_1ab_ab_apply x1 _ j e)

/-- The second scratch buffer's contents: the value block's rows. -/
theorem pay3_apply (x2 : Vec Ideal S1x4096x64 .f32) (j : Fin 4096) (d : Fin 64) :
    k0_pay3 (F := Ideal) x2 (ix2 j d) = x2 (ix3 (0 : Fin 1) j d) := by
  unfold k0_pay3
  rw [shapeCast_self]
  exact shapeCast_1ab_ab_apply x2 _ j d

/-- The product of the query tile with the transposed keys (both contracted along their 64 features), into the zero tile:
    entry `(p, j)` is the inner product of query row `p` and key row `j`. -/
theorem qk_apply (l : FVec Ideal S256x64 .bf16) (r : FVec Ideal S4096x64 .bf16) (p : Fin 256) (j : Fin 4096) :
    matmul dot_S256x64_S4096x64_S256x4096_1_1_0_0_n_n none l r (constant S256x4096 .f32 0x00000000#32) (ix2 p j)
      = ∑ d : Fin 64, l (ix2 p d) * r (ix2 j d) := by
  simp only [matmul]
  rw [show dot_S256x64_S4096x64_S256x4096_1_1_0_0_n_n
      = Cert.Lib.rowsDot Facts₀.dot_S256x64_S4096x64_S256x4096_1_1_0_0_n_n_wf from rfl]
  exact Cert.Lib.matmul_rows_zero_apply _ none l r p j

/-- The query tile's rows, each divided by its norm plus ε. -/
def qrows (x0 : Vec Ideal S1x256x64 .f32) : FVec Ideal S256x64 .f32 :=
  divf (shapeCast S256x64 x0 shapeCasts_S1x256x64_S256x64)
    (broadcastTo S256x64 (addf (sqrt (shapeCast S256x1 (multiReduction .add [1] S256
      (mulf (shapeCast S256x64 x0 shapeCasts_S1x256x64_S256x64) (shapeCast S256x64 x0 shapeCasts_S1x256x64_S256x64))
      0x00000000#32 reduces_S256x64_S256 (.inl rfl) rfl) shapeCasts_S256_S256x1))
      (broadcast S256x1 (Scalar.ofBits (F := Ideal) .f32 0x2EDBE6FF#32))) broadcasts_S256x1_S256x64)

theorem qrows_apply (x0 : Vec Ideal S1x256x64 .f32) (r : Fin 256) (d : Fin 64) :
    qrows x0 (ix2 r d) = unit (fun e => x0 (ix3 (0 : Fin 1) r e)) d := by
  unfold qrows
  refine (scaled_apply (a := 256) (shapeCast S256x64 x0 shapeCasts_S1x256x64_S256x64) _ _ _ _ _ r d).trans ?_
  exact congrArg (fun f => unit f d) (funext fun e => shapeCast_1ab_ab_apply x0 _ r e)

/-- The tile of scores: the scaled query rows against the keys in use, −∞ where the mask word is not zero. -/
def scores (x0 : Vec Ideal S1x256x64 .f32) (x3 : Vec Ideal S1x256x4096 .i32) (kn : FVec Ideal S4096x64 .bf16) :
    FVec Ideal S256x4096 .f32 :=
  select (cmpi .ne (shapeCast S256x4096 x3 shapeCasts_S1x256x4096_S256x4096) (constantI S256x4096 32 0#32))
    (broadcast S256x4096 (Scalar.ofBits (F := Ideal) .f32 0xFF800000#32))
    (matmul dot_S256x64_S4096x64_S256x4096_1_1_0_0_n_n none (truncf .bf16 (qrows x0) bitsLt_bf16_f32) kn
      (constant S256x4096 .f32 0x00000000#32))

theorem scores_apply (x0 : Vec Ideal S1x256x64 .f32) (x3 : Vec Ideal S1x256x4096 .i32) (kn : Vec Ideal S4096x64 .bf16)
    (keys : Fin 4096 → Fin 64 → EReal) (hk : ∀ j d, kn (ix2 j d) = unit (keys j) d) (r : Fin 256) (j : Fin 4096) :
    scores x0 x3 kn (ix2 r j)
      = score (fun d => x0 (ix3 (0 : Fin 1) r d)) keys
          (fun j' => IntOp.cmpi .ne (x3 (ix3 (0 : Fin 1) r j')) 0#32) j := by
  unfold scores
  rw [select_apply, qk_apply]
  show Scalar.select (IntOp.cmpi .ne (shapeCast S256x4096 x3 shapeCasts_S1x256x4096_S256x4096 (ix2 r j)) 0#32) ninf _ = _
  rw [shapeCast_1ab_ab_apply]
  unfold score
  refine congrArg _ (Finset.sum_congr rfl fun d _ => ?_)
  rw [hk]
  exact congrArg (· * _) (qrows_apply x0 r d)

/-- The weight tile: at `(r, j)` the attention weight of key `j` for query row `r` of the tile, over the keys whose scaled
    rows the scratch buffer holds. -/
theorem pay4_apply (x0 : Vec Ideal S1x256x64 .f32) (x3 : Vec Ideal S1x256x4096 .i32) (kn : Vec Ideal S4096x64 .bf16)
    (keys : Fin 4096 → Fin 64 → EReal) (hk : ∀ j d, kn (ix2 j d) = unit (keys j) d) (r : Fin 256) (j : Fin 4096) :
    k0_pay4 (F := Ideal) x0 x3 kn (ix2 r j)
      = attn (fun d => x0 (ix3 (0 : Fin 1) r d)) keys
          (fun j' => IntOp.cmpi .ne (x3 (ix3 (0 : Fin 1) r j')) 0#32) j := by
  unfold k0_pay4
  refine (softmax_apply (a := 256) (b := 4096) (scores x0 x3 kn) _ _ _ _ _ _ _ r j).trans ?_
  simp only [scores_apply x0 x3 kn keys hk r]
  rfl

/-- The stored weight tile is the weight tile with a unit axis put in front. -/
theorem pay5_apply (x0 : Vec Ideal S1x256x64 .f32) (x3 : Vec Ideal S1x256x4096 .i32) (kn : Vec Ideal S4096x64 .bf16)
    (keys : Fin 4096 → Fin 64 → EReal) (hk : ∀ j d, kn (ix2 j d) = unit (keys j) d) (u : Fin 1) (r : Fin 256) (j : Fin 4096) :
    k0_pay5 (F := Ideal) x0 x3 kn (ix3 u r j)
      = attn (fun d => x0 (ix3 (0 : Fin 1) r d)) keys
          (fun j' => IntOp.cmpi .ne (x3 (ix3 (0 : Fin 1) r j')) 0#32) j := by
  unfold k0_pay5
  exact (shapeCast_ab_1ab_apply (k0_pay4 (F := Ideal) x0 x3 kn) _ u r j).trans (pay4_apply x0 x3 kn keys hk r j)

/-- Narrowed to the shorter float format the weight tile is itself: on the extended reals a change of format changes nothing. -/
theorem pay6_apply (x0 : Vec Ideal S1x256x64 .f32) (x3 : Vec Ideal S1x256x4096 .i32) (kn : Vec Ideal S4096x64 .bf16)
    (keys : Fin 4096 → Fin 64 → EReal) (hk : ∀ j d, kn (ix2 j d) = unit (keys j) d) (r : Fin 256) (j : Fin 4096) :
    k0_pay6 (F := Ideal) x0 x3 kn (ix2 r j)
      = attn (fun d => x0 (ix3 (0 : Fin 1) r d)) keys
          (fun j' => IntOp.cmpi .ne (x3 (ix3 (0 : Fin 1) r j')) 0#32) j := by
  unfold k0_pay6
  exact pay4_apply x0 x3 kn keys hk r j

/-- The product of a 256 × 4096 tile with 4096 rows of 64 features, into the zero tile and with a unit axis put in front:
    entry `(r, d)` is the sum over the 4096 rows of the tile's entry times the row's feature. -/
theorem pay1_apply (p : FVec Ideal S256x4096 .bf16) (v : Vec Ideal S4096x64 .bf16) (u : Fin 1) (r : Fin 256) (d : Fin 64) :
    k0_pay1 (F := Ideal) p v (ix3 u r d) = ∑ j : Fin 4096, p (ix2 r j) * v (ix2 j d) := by
  unfold k0_pay1
  refine (shapeCast_ab_1ab_apply _ _ u r d).trans ?_
  simp only [matmul]
  rw [show dot_S256x4096_S4096x64_S256x64_1_0_0_1_n_n
      = Cert.Lib.plainDot Facts₀.dot_S256x4096_S4096x64_S256x64_1_0_0_1_n_n_wf from rfl]
  exact Cert.Lib.matmul_plain_zero_apply _ none p v r d

/-- The output tile: at `(r, d)` the attention output of query row `r` of the tile at feature `d`, over the keys and the
    value rows the two scratch buffers hold. -/
theorem out_tile_apply (x0 : Vec Ideal S1x256x64 .f32) (x3 : Vec Ideal S1x256x4096 .i32) (kn vn : Vec Ideal S4096x64 .bf16)
    (keys vals : Fin 4096 → Fin 64 → EReal) (hk : ∀ j d, kn (ix2 j d) = unit (keys j) d)
    (hv : ∀ j d, vn (ix2 j d) = vals j d) (u : Fin 1) (r : Fin 256) (d : Fin 64) :
    k0_pay1 (F := Ideal) (k0_pay6 (F := Ideal) x0 x3 kn) vn (ix3 u r d)
      = out (fun d' => x0 (ix3 (0 : Fin 1) r d')) keys vals
          (fun j' => IntOp.cmpi .ne (x3 (ix3 (0 : Fin 1) r j')) 0#32) d := by
  refine (pay1_apply (k0_pay6 (F := Ideal) x0 x3 kn) vn u r d).trans ?_
  unfold out
  refine Finset.sum_congr rfl fun j _ => ?_
  rw [pay6_apply x0 x3 kn keys hk r j, hv]

end Cert.KernelIdeal.Rows

end
-- ==== Proof.Blocks.lean ====
/-
  From the tiles to the two whole result arrays, on the extended reals.

  Grid point `t` is query tile `t mod 16` of batch `t / 16`. Its query block is rows `256·(t mod 16) …` of that batch's
  queries, its key and value blocks are all 4096 rows of the batch, its mask block the same query rows of the batch's mask (the
  mask reaches the kernel widened to 32-bit words, and the kernel's test "word ≠ 0" gives the bit back). By induction over
  the points the first scratch buffer holds, after every tile, the scaled key rows of the tile's own batch and the second one
  that batch's value rows: the first tile of a batch stores them, the later tiles leave them alone and stay in the batch. So
  the weight tile a point writes back is the whole weight array read through the point's block, and likewise the output tile;
  the 128 blocks cover both arrays, which therefore end as the two whole-array functions of the arguments.
-/
import proofs.«176599_j18605798326652_2_alg».proof.Proof.Gen.KernelIdeal.Value
import proofs.«176599_j18605798326652_2_alg».proof.Proof.Carry
import proofs.«176599_j18605798326652_2_alg».proof.Proof.Payload
import proofs.«176599_j18605798326652_2_alg».proof.Proof.Whole
import Idealize.ShloMosaic.Lib.Pipeline.Value
import Idealize.ShloMosaic.Lib.ValueIdx
import Idealize.ShloMosaic.Lib.StableHlo.Run

noncomputable section
open Idealize.ShloMosaic Idealize.ShloMosaic.TcCoe Idealize.SL.Sem Idealize.ShloMosaic.ValueIdx
open Idealize.ShloMosaic.Pipeline (Dat)
namespace Cert.KernelIdeal.Blocks
open Cert.KernelIdeal Cert.KernelIdeal.Gen Cert.Attn
variable (m : (ℓ : Loc nD τ sig) → Buf (Elt Ideal) ℓ) (ρ : Dev nD → PrngReg)

/-! ## The arguments, and which rows a point works on -/

/-- The query, key and value arrays and the mask as the run finds them. -/
abbrev argQ (c : Dev nD) : S8x4096x64.Idx → EReal := m ((c : Thread nD τ).loc main_arg0)
abbrev argK (c : Dev nD) : S8x4096x64.Idx → EReal := m ((c : Thread nD τ).loc main_arg1)
abbrev argV (c : Dev nD) : S8x4096x64.Idx → EReal := m ((c : Thread nD τ).loc main_arg2)
abbrev argM (c : Dev nD) : S8x4096x4096.Idx → BitVec 1 := m ((c : Thread nD τ).loc main_arg3)

theorem hN : cfg0.N = 128 := N_0

/-- The batch a grid point works on. -/
def bat (t : Fin cfg0.N) : Fin 8 := ⟨t.val / 16, by have h1 := t.isLt; have h2 := hN; omega⟩

/-- The query row of the whole array that row `r` of a point's tile is. -/
def qrow (t : Fin cfg0.N) (r : Fin 256) : Fin 4096 := ⟨256 * (t.val % 16) + r.val, by have h := r.isLt; omega⟩

/-- The block index of every window at every point, decided over the 128 points: the batch on the first axis; the query tile
    on the second axis of the query, mask, output and weight windows; zero elsewhere. -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = t.val % 16 ∧ win0_3.index t (2 : Fin 3) = 0)
    ∧ (win0_4.index t (0 : Fin 3) = t.val / 16 ∧ win0_4.index t (1 : Fin 3) = t.val % 16 ∧ win0_4.index t (2 : Fin 3) = 0)
    ∧ (win0_5.index t (0 : Fin 3) = t.val / 16 ∧ win0_5.index t (1 : Fin 3) = t.val % 16 ∧ win0_5.index t (2 : Fin 3) = 0) :=
  (by decide +kernel : ∀ t : Fin grid0.N, _)

/-! ## The input blocks as rows of the arguments -/

/-- Row `r` of a point's query block is query row `256·(t mod 16) + r` of the point's batch. -/
theorem read_q (c : Dev nD) (t : Fin cfg0.N) (u : Fin 1) (r : Fin 256) (e : Fin 64) :
    (iblk m c 0 t : Vec Ideal S1x256x64 .f32) (ix3 u r e) = argQ m c (ix3 (bat t) (qrow t r) e) := by
  obtain ⟨⟨e0, e1, e2⟩, -⟩ := idx_facts t
  unfold iblk
  rw [View.read_apply]
  show V m c main_arg0 _ = m ((c : Thread nD τ).loc main_arg0) _
  rw [V_main_arg0 m c]
  congr 1
  funext a
  apply Fin.ext
  match a with
  | ⟨0, _⟩ => show win0_0.index t (0 : Fin 3) * 1 + 1 * u.val = t.val / 16; have hu := u.isLt; omega
  | ⟨1, _⟩ => show win0_0.index t (1 : Fin 3) * 256 + 1 * r.val = 256 * (t.val % 16) + r.val; omega
  | ⟨2, _⟩ => show win0_0.index t (2 : Fin 3) * 64 + 1 * e.val = e.val; omega

/-- Row `j` of a point's key block is key row `j` of the point's batch. -/
theorem read_k (c : Dev nD) (t : Fin cfg0.N) (u : Fin 1) (j : Fin 4096) (e : Fin 64) :
    (iblk m c 1 t : Vec Ideal S1x4096x64 .f32) (ix3 u j e) = argK m c (ix3 (bat t) j e) := by
  obtain ⟨-, ⟨e0, e1, e2⟩, -⟩ := idx_facts t
  unfold iblk
  rw [View.read_apply]
  show V m c main_arg1 _ = m ((c : Thread nD τ).loc main_arg1) _
  rw [V_main_arg1 m c]
  congr 1
  funext a
  apply Fin.ext
  match a with
  | ⟨0, _⟩ => show win0_1.index t (0 : Fin 3) * 1 + 1 * u.val = t.val / 16; have hu := u.isLt; omega
  | ⟨1, _⟩ => show win0_1.index t (1 : Fin 3) * 4096 + 1 * j.val = j.val; omega
  | ⟨2, _⟩ => show win0_1.index t (2 : Fin 3) * 64 + 1 * e.val = e.val; omega

/-- Row `j` of a point's value block is value row `j` of the point's batch. -/
theorem read_v (c : Dev nD) (t : Fin cfg0.N) (u : Fin 1) (j : Fin 4096) (e : Fin 64) :
    (iblk m c 2 t : Vec Ideal S1x4096x64 .f32) (ix3 u j e) = argV m c (ix3 (bat t) j e) := by
  obtain ⟨-, -, ⟨e0, e1, e2⟩, -⟩ := idx_facts t
  unfold iblk
  rw [View.read_apply]
  show V m c main_arg2 _ = m ((c : Thread nD τ).loc main_arg2) _
  rw [V_main_arg2 m c]
  congr 1
  funext a
  apply Fin.ext
  match a with
  | ⟨0, _⟩ => show win0_2.index t (0 : Fin 3) * 1 + 1 * u.val = t.val / 16; have hu := u.isLt; omega
  | ⟨1, _⟩ => show win0_2.index t (1 : Fin 3) * 4096 + 1 * j.val = j.val; omega
  | ⟨2, _⟩ => show win0_2.index t (2 : Fin 3) * 64 + 1 * e.val = e.val; omega

/-- The mask reaches the kernel with every bit widened to a 32-bit word. -/
theorem mask_words (c : Dev nD) :
    (V m c main_v0 : S8x4096x4096.Idx → BitVec 32) = extui 32 (argM m c) natLt_1_32 := by
  dsimp only [Gen.V, Gen.hostOps0]
  after_results

/-- A widened bit is not the zero word exactly when the bit is set. -/
theorem widen_ne_zero (b : BitVec 1) : IntOp.cmpi .ne (b.setWidth 32) 0#32 = b := by
  revert b; decide

/-- The kernel's mask test at entry `(r, j)` of a point's mask block is the mask bit of query row `256·(t mod 16) + r` of the
    point's batch at key `j`. -/
theorem mask_bit (c : Dev nD) (t : Fin cfg0.N) (u : Fin 1) (r : Fin 256) (j : Fin 4096) :
    IntOp.cmpi .ne ((iblk m c 3 t : Vec Ideal S1x256x4096 .i32) (ix3 u r j)) 0#32 = argM m c (ix3 (bat t) (qrow t r) j) := by
  obtain ⟨-, -, -, ⟨e0, e1, e2⟩, -⟩ := idx_facts t
  have hr : (iblk m c 3 t : Vec Ideal S1x256x4096 .i32) (ix3 u r j)
      = (V m c main_v0 : S8x4096x4096.Idx → BitVec 32) (ix3 (bat t) (qrow t r) j) := by
    unfold iblk
    rw [View.read_apply]
    show V m c main_v0 _ = V m c main_v0 _
    congr 1
    funext a
    apply Fin.ext
    match a with
    | ⟨0, _⟩ => show win0_3.index t (0 : Fin 3) * 1 + 1 * u.val = t.val / 16; have hu := u.isLt; omega
    | ⟨1, _⟩ => show win0_3.index t (1 : Fin 3) * 256 + 1 * r.val = 256 * (t.val % 16) + r.val; omega
    | ⟨2, _⟩ => show win0_3.index t (2 : Fin 3) * 4096 + 1 * j.val = j.val; omega
  rw [hr, mask_words m c]
  exact widen_ne_zero _

/-! ## What the scratch buffers hold after every point -/

/-- The key rows and the value rows of batch `b`. -/
def keysOf (c : Dev nD) (b : Fin 8) : Fin 4096 → Fin 64 → EReal := fun j e => argK m c (ix3 b j e)
def valsOf (c : Dev nD) (b : Fin 8) : Fin 4096 → Fin 64 → EReal := fun j d => argV m c (ix3 b j d)

/-- After the first tile of a batch the scratch buffers hold the batch's scaled key rows and its value rows. -/
theorem held_first (c : Dev nD) (t : Fin cfg0.N) (h0 : t.val % 16 = 0) :
    (∀ j d, (outsAt0 m c t.val t.isLt).2.2.1 (ix2 j d) = unit (keysOf m c (bat t) j) d)
    ∧ (∀ j d, (outsAt0 m c t.val t.isLt).2.2.2 (ix2 j d) = valsOf m c (bat t) j d) := by
  rw [Carry.first_tile m c t h0]
  refine ⟨fun j d => ?_, fun j d => ?_⟩
  · exact (Rows.pay2_apply (iblk m c 1 t) j d).trans
      (congrArg (fun f => unit f d) (funext fun e => read_k m c t 0 j e))
  · exact (Rows.pay3_apply (iblk m c 2 t) j d).trans (read_v m c t 0 j d)

/-- After EVERY point they hold the scaled key rows and the value rows of the point's own batch: a later tile leaves them as
    the tile before left them, and the tile before is in the same batch. -/
theorem held (c : Dev nD) : ∀ (n : ℕ) (hn : n < cfg0.N),
    (∀ j d, (outsAt0 m c n hn).2.2.1 (ix2 j d) = unit (keysOf m c (bat ⟨n, hn⟩) j) d)
    ∧ (∀ j d, (outsAt0 m c n hn).2.2.2 (ix2 j d) = valsOf m c (bat ⟨n, hn⟩) j d) := by
  intro n
  induction n with
  | zero =>
    intro hn
    exact held_first m c ⟨0, hn⟩ (Nat.zero_mod _)
  | succ n ih =>
    intro hn
    by_cases h0 : (n + 1) % 16 = 0
    · exact held_first m c ⟨n + 1, hn⟩ h0
    · have hb : bat ⟨n + 1, hn⟩ = bat ⟨n, Nat.lt_of_succ_lt hn⟩ :=
        Fin.ext (by show (n + 1) / 16 = n / 16; omega)
      rw [hb, Carry.later_tile m c ⟨n + 1, hn⟩ h0]
      exact ih (Nat.lt_of_succ_lt hn)

/-! ## The two tiles at every point -/

/-- The weight tile after point `t`, entry by entry: the whole weight array at the tile's rows. -/
theorem attn_tile (c : Dev nD) (t : Fin cfg0.N) (y : S1x256x4096.Idx) :
    ((outsAt0 m c t.val t.isLt).2.1 : Vec Ideal S1x256x4096 .f32) y
      = wholeAttn (argQ m c) (argK m c) (argM m c) (ix3 (bat t) (qrow t (y 1)) (y 2)) := by
  obtain ⟨u, r, j, rfl⟩ : ∃ (u : Fin 1) (r : Fin 256) (j : Fin 4096), y = ix3 u r j := ⟨y 0, y 1, y 2, eq_ix3 y⟩
  rw [(Carry.tiles m c t).2]
  refine (Rows.pay5_apply (iblk m c 0 t) (iblk m c 3 t) (outsAt0 m c t.val t.isLt).2.2.1 (keysOf m c (bat t))
    (held m c t.val t.isLt).1 u r j).trans ?_
  have e1 : (fun d => (iblk m c 0 t : Vec Ideal S1x256x64 .f32) (ix3 (0 : Fin 1) r d))
      = fun d => argQ m c (ix3 (bat t) (qrow t r) d) := funext fun d => read_q m c t 0 r d
  have e2 : (fun j' => IntOp.cmpi .ne ((iblk m c 3 t : Vec Ideal S1x256x4096 .i32) (ix3 (0 : Fin 1) r j')) 0#32)
      = fun j' => argM m c (ix3 (bat t) (qrow t r) j') := funext fun j' => mask_bit m c t 0 r j'
  exact congrArg₂ (fun qr mr => attn qr (keysOf m c (bat t)) mr j) e1 e2

/-- The output tile after point `t`, entry by entry: the whole output array at the tile's rows. -/
theorem out_tile (c : Dev nD) (t : Fin cfg0.N) (y : S1x256x64.Idx) :
    ((outsAt0 m c t.val t.isLt).1 : Vec Ideal S1x256x64 .f32) y
      = wholeOut (argQ m c) (argK m c) (argV m c) (argM m c) (ix3 (bat t) (qrow t (y 1)) (y 2)) := by
  obtain ⟨u, r, d, rfl⟩ : ∃ (u : Fin 1) (r : Fin 256) (d : Fin 64), y = ix3 u r d := ⟨y 0, y 1, y 2, eq_ix3 y⟩
  rw [(Carry.tiles m c t).1]
  refine (Rows.out_tile_apply (iblk m c 0 t) (iblk m c 3 t) (outsAt0 m c t.val t.isLt).2.2.1
    (outsAt0 m c t.val t.isLt).2.2.2 (keysOf m c (bat t)) (valsOf m c (bat t))
    (held m c t.val t.isLt).1 (held m c t.val t.isLt).2 u r d).trans ?_
  have e1 : (fun d' => (iblk m c 0 t : Vec Ideal S1x256x64 .f32) (ix3 (0 : Fin 1) r d'))
      = fun d' => argQ m c (ix3 (bat t) (qrow t r) d') := funext fun d' => read_q m c t 0 r d'
  have e2 : (fun j' => IntOp.cmpi .ne ((iblk m c 3 t : Vec Ideal S1x256x4096 .i32) (ix3 (0 : Fin 1) r j')) 0#32)
      = fun j' => argM m c (ix3 (bat t) (qrow t r) j') := funext fun j' => mask_bit m c t 0 r j'
  exact congrArg₂ (fun qr mr => out qr (keysOf m c (bat t)) (valsOf m c (bat t)) mr d) e1 e2

/-! ## From the tiles to the arrays -/

/-- Where entry `y` of point `t`'s output block sits in the output array. -/
theorem emb4 (t : Fin cfg0.N) (y : S1x256x64.Idx) :
    ((cfg0.win 4).blk t).view.emb y = ix3 (bat t) (qrow t (y 1)) (y 2) := by
  obtain ⟨-, -, -, -, ⟨e0, e1, e2⟩, -⟩ := idx_facts t
  funext a
  apply Fin.ext
  match a with
  | ⟨0, _⟩ => show win0_4.index t (0 : Fin 3) * 1 + 1 * (y 0).val = t.val / 16; have hy : (y 0).val < 1 := (y 0).isLt; omega
  | ⟨1, _⟩ => show win0_4.index t (1 : Fin 3) * 256 + 1 * (y 1).val = 256 * (t.val % 16) + (y 1).val; omega
  | ⟨2, _⟩ => show win0_4.index t (2 : Fin 3) * 64 + 1 * (y 2).val = (y 2).val; omega

/-- Where entry `y` of point `t`'s weight block sits in the weight array. -/
theorem emb5 (t : Fin cfg0.N) (y : S1x256x4096.Idx) :
    ((cfg0.win 5).blk t).view.emb y = ix3 (bat t) (qrow t (y 1)) (y 2) := by
  obtain ⟨-, -, -, -, -, e0, e1, e2⟩ := idx_facts t
  funext a
  apply Fin.ext
  match a with
  | ⟨0, _⟩ => show win0_5.index t (0 : Fin 3) * 1 + 1 * (y 0).val = t.val / 16; have hy : (y 0).val < 1 := (y 0).isLt; omega
  | ⟨1, _⟩ => show win0_5.index t (1 : Fin 3) * 256 + 1 * (y 1).val = 256 * (t.val % 16) + (y 1).val; omega
  | ⟨2, _⟩ => show win0_5.index t (2 : Fin 3) * 4096 + 1 * (y 2).val = (y 2).val; omega

/-- What point `t` writes back to the output array is the whole output array read through the point's block. -/
theorem flushed4_eq (c : Dev nD) (t : Fin cfg0.N) :
    (dats m 0 c).flushed 4 t
      = ((cfg0.win 4).blk t).view.read (Elt Ideal) (wholeOut (argQ m c) (argK m c) (argV m c) (argM m c)) := by
  rw [Value.flushed4]
  funext y
  show ((outsAt0 m c t.val t.isLt).1 : Vec Ideal S1x256x64 .f32) y
    = wholeOut (argQ m c) (argK m c) (argV m c) (argM m c) (((cfg0.win 4).blk t).view.emb y)
  rw [emb4 t y]
  exact out_tile m c t y

/-- What point `t` writes back to the weight array is the whole weight array read through the point's block. -/
theorem flushed5_eq (c : Dev nD) (t : Fin cfg0.N) :
    (dats m 0 c).flushed 5 t
      = ((cfg0.win 5).blk t).view.read (Elt Ideal) (wholeAttn (argQ m c) (argK m c) (argM m c)) := by
  rw [Value.flushed5]
  funext y
  show ((outsAt0 m c t.val t.isLt).2.1 : Vec Ideal S1x256x4096 .f32) y
    = wholeAttn (argQ m c) (argK m c) (argM m c) (((cfg0.win 5).blk t).view.emb y)
  rw [emb5 t y]
  exact attn_tile m c t y

/-- An index of the output array is in point `t`'s block iff each coordinate is in the block's range on its axis. -/
theorem mem_blk4 (t : Fin cfg0.N) (i : S8x4096x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v1_0).slice (win0_4.rect t)).set ↔ _
  rw [View.set_slice_whole, Rect.mem_set_unit]
  exact Iff.rfl

theorem mem_blk5 (t : Fin cfg0.N) (i : S8x4096x4096.Idx) :
    i ∈ ((cfg0.win 5).blk t).view.set ↔ ∀ a : Fin 3, win0_5.index t a * S1x256x4096.size a ≤ (i a).val ∧ (i a).val < win0_5.index t a * S1x256x4096.size a + S1x256x4096.size a := by
  show i ∈ ((View.whole main_v1_1).slice (win0_5.rect t)).set ↔ _
  rw [View.set_slice_whole, Rect.mem_set_unit]
  exact Iff.rfl

/-- Every index of the output array is in the block of the point of its batch and query tile. -/
theorem cover4 (i : S8x4096x64.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 64 := (i 2).isLt
  have hlt : 16 * (i 0).val + (i 1).val / 256 < cfg0.N := by rw [hN]; omega
  obtain ⟨-, -, -, -, ⟨e0, e1, e2⟩, -⟩ := idx_facts ⟨16 * (i 0).val + (i 1).val / 256, hlt⟩
  refine ⟨⟨16 * (i 0).val + (i 1).val / 256, hlt⟩, flush0_4 _, ?_⟩
  rw [mem_blk4]
  intro a
  match a with
  | ⟨0, _⟩ =>
    show win0_4.index ⟨16 * (i 0).val + (i 1).val / 256, hlt⟩ (0 : Fin 3) * 1 ≤ (i 0).val
      ∧ (i 0).val < win0_4.index ⟨16 * (i 0).val + (i 1).val / 256, hlt⟩ (0 : Fin 3) * 1 + 1
    rw [e0]; dsimp only; omega
  | ⟨1, _⟩ =>
    show win0_4.index ⟨16 * (i 0).val + (i 1).val / 256, hlt⟩ (1 : Fin 3) * 256 ≤ (i 1).val
      ∧ (i 1).val < win0_4.index ⟨16 * (i 0).val + (i 1).val / 256, hlt⟩ (1 : Fin 3) * 256 + 256
    rw [e1]; dsimp only; omega
  | ⟨2, _⟩ =>
    show win0_4.index ⟨16 * (i 0).val + (i 1).val / 256, hlt⟩ (2 : Fin 3) * 64 ≤ (i 2).val
      ∧ (i 2).val < win0_4.index ⟨16 * (i 0).val + (i 1).val / 256, hlt⟩ (2 : Fin 3) * 64 + 64
    rw [e2]; omega

/-- Every index of the weight array is in the block of the point of its batch and query tile. -/
theorem cover5 (i : S8x4096x4096.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 4096 := (i 2).isLt
  have hlt : 16 * (i 0).val + (i 1).val / 256 < cfg0.N := by rw [hN]; omega
  obtain ⟨-, -, -, -, -, e0, e1, e2⟩ := idx_facts ⟨16 * (i 0).val + (i 1).val / 256, hlt⟩
  refine ⟨⟨16 * (i 0).val + (i 1).val / 256, hlt⟩, flush0_5 _, ?_⟩
  rw [mem_blk5]
  intro a
  match a with
  | ⟨0, _⟩ =>
    show win0_5.index ⟨16 * (i 0).val + (i 1).val / 256, hlt⟩ (0 : Fin 3) * 1 ≤ (i 0).val
      ∧ (i 0).val < win0_5.index ⟨16 * (i 0).val + (i 1).val / 256, hlt⟩ (0 : Fin 3) * 1 + 1
    rw [e0]; dsimp only; omega
  | ⟨1, _⟩ =>
    show win0_5.index ⟨16 * (i 0).val + (i 1).val / 256, hlt⟩ (1 : Fin 3) * 256 ≤ (i 1).val
      ∧ (i 1).val < win0_5.index ⟨16 * (i 0).val + (i 1).val / 256, hlt⟩ (1 : Fin 3) * 256 + 256
    rw [e1]; dsimp only; omega
  | ⟨2, _⟩ =>
    show win0_5.index ⟨16 * (i 0).val + (i 1).val / 256, hlt⟩ (2 : Fin 3) * 4096 ≤ (i 2).val
      ∧ (i 2).val < win0_5.index ⟨16 * (i 0).val + (i 1).val / 256, hlt⟩ (2 : Fin 3) * 4096 + 4096
    rw [e2]; omega

/-- The output array after the run. -/
theorem final4 (c : Dev nD) :
    (dats m 0 c).arrAt 4 cfg0.N = wholeOut (argQ m c) (argK m c) (argV m c) (argM m c) :=
  (dats m 0 c).arrAt_eq_of_cover 4 _ (fun t _ => flushed4_eq m c t) cover4

/-- The weight array after the run. -/
theorem final5 (c : Dev nD) :
    (dats m 0 c).arrAt 5 cfg0.N = wholeAttn (argQ m c) (argK m c) (argM m c) :=
  (dats m 0 c).arrAt_eq_of_cover 5 _ (fun t _ => flushed5_eq m c t) cover5

/-- The kernel's run, read: every weakly fair execution terminates with the two result arrays at the whole-array attention
    output and weights of the arguments, and the arguments unchanged. -/
theorem run : θ_run defs (onTc (τ := τ) (main (F := Ideal))) ⟨m, fun _ => 0, ρ⟩ fun r => ∀ c : Dev nD,
      r.2.mem ((c : Thread nD τ).loc main_v1_0) = wholeOut (argQ m c) (argK m c) (argV m c) (argM m c)
      ∧ r.2.mem ((c : Thread nD τ).loc main_v1_1) = wholeAttn (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Blocks
end
-- ==== Proof.lean ====
/-
  The kernel computes masked cosine attention in 128 grid points — sixteen query tiles of 256 rows for each of eight batches —
  keeping a batch's scaled key rows and its value rows in two scratch buffers that the first tile of the batch fills and the
  other fifteen reuse; the reference computes the same thing with whole-array operations. On the extended reals both end with
  the same two arrays: the attention weights `exp (s − max s) / Σ exp (s − max s)` of every query row, its scores `s` the inner
  products of the rows scaled by `1 / (‖·‖ + ε)` and −∞ under the mask, and the weights' combinations of the value rows.

  The three programs run to the end without a fault and leave their arguments as they were: the kernel's two readings by
  their generated frames, the reference by its generated run. The kernel's idealized reading is its own text read on the
  extended reals, so nothing is owed for it. For the values, the kernel side is `Blocks.run` (each result array one function
  of the whole argument arrays) and the reference side its generated run, read one query row at a time (`RefRows`); the two
  functions are the same one (`Cert.Attn.wholeOut`, `Cert.Attn.wholeAttn`), and the arguments agree by hypothesis. No use is
  made of the inputs being finite: both sides are the same expression tree, equal at every extended real.
-/
import proofs.«176599_j18605798326652_2_alg».proof.Defs
import proofs.«176599_j18605798326652_2_alg».proof.Proof.Gen.Kernel
import proofs.«176599_j18605798326652_2_alg».proof.Proof.Gen.Kernel.Skeleton
import proofs.«176599_j18605798326652_2_alg».proof.Proof.Gen.Kernel.Launch
import proofs.«176599_j18605798326652_2_alg».proof.Proof.Gen.Kernel.Points
import proofs.«176599_j18605798326652_2_alg».proof.Proof.Gen.Kernel.Frame
import proofs.«176599_j18605798326652_2_alg».proof.Proof.Gen.KernelIdeal
import proofs.«176599_j18605798326652_2_alg».proof.Proof.Gen.KernelIdeal.Skeleton
import proofs.«176599_j18605798326652_2_alg».proof.Proof.Gen.KernelIdeal.Launch
import proofs.«176599_j18605798326652_2_alg».proof.Proof.Gen.KernelIdeal.Points
import proofs.«176599_j18605798326652_2_alg».proof.Proof.Gen.KernelIdeal.Frame
import proofs.«176599_j18605798326652_2_alg».proof.Proof.Gen.ReferenceIdeal
import proofs.«176599_j18605798326652_2_alg».proof.Proof.Gen.Pre_finite_inputs
import proofs.«176599_j18605798326652_2_alg».proof.Proof.Gen.KernelIdeal.Value
import proofs.«176599_j18605798326652_2_alg».proof.Proof.Gen.ReferenceIdeal.Run
import proofs.«176599_j18605798326652_2_alg».proof.Proof.Gen.ReferenceIdeal.Read
import proofs.«176599_j18605798326652_2_alg».proof.Proof.Whole
import proofs.«176599_j18605798326652_2_alg».proof.Proof.RefRows
import proofs.«176599_j18605798326652_2_alg».proof.Proof.Blocks
import Idealize.ShloMosaic.Adequacy
import Idealize.ShloMosaic.Init

noncomputable section

namespace Cert.Proof

open Idealize.ShloMosaic Idealize.ShloMosaic.ValueIdx Idealize.SL.Sem

section RefSide
open Cert.ReferenceIdeal

/-- The reference's weight array is the whole-array weights of its arguments: at `(b, i, j)` the weight of key `j` for query
    row `(b, i)`. -/
theorem ref_weights (q k : (⟨S8x4096x64, .f32⟩ : BufTy).Contents (Elt Ideal))
    (msk : (⟨S8x4096x4096, .i1⟩ : BufTy).Contents (Elt Ideal)) :
    Cert.ReferenceIdeal.Read.val_main_v22 (F := Ideal) q k msk = Cert.Attn.wholeAttn q k msk := by
  funext i
  obtain ⟨b, r, j, rfl⟩ : ∃ (b : Fin 8) (r : Fin 4096) (j : Fin 4096), i = ix3 b r j := ⟨i 0, i 1, i 2, eq_ix3 i⟩
  exact Cert.RefRows.weights_apply q k msk b r j

/-- The reference's output array is the whole-array output of its arguments. -/
theorem ref_output (q k v : (⟨S8x4096x64, .f32⟩ : BufTy).Contents (Elt Ideal))
    (msk : (⟨S8x4096x4096, .i1⟩ : BufTy).Contents (Elt Ideal)) :
    Cert.ReferenceIdeal.Read.val_main_v23 (F := Ideal) q k v msk = Cert.Attn.wholeOut q k v msk := by
  funext i
  obtain ⟨b, r, d, rfl⟩ : ∃ (b : Fin 8) (r : Fin 4096) (d : Fin 64), i = ix3 b r d := ⟨i 0, i 1, i 2, eq_ix3 i⟩
  exact Cert.RefRows.output_apply q k v msk b r d

end RefSide

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the whole-array attention output and weights of arguments that agree. -/
theorem algebraic : Cert.algebraic_KernelIdeal_ReferenceIdeal := by
  intro m ρ m' ρ' _ hagree
  refine ⟨fun c => Cert.Attn.wholeOut (Cert.KernelIdeal.Blocks.argQ m c) (Cert.KernelIdeal.Blocks.argK m c)
      (Cert.KernelIdeal.Blocks.argV m c) (Cert.KernelIdeal.Blocks.argM m c),
    fun c => Cert.Attn.wholeAttn (Cert.KernelIdeal.Blocks.argQ m c) (Cert.KernelIdeal.Blocks.argK m c)
      (Cert.KernelIdeal.Blocks.argM m c),
    Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v23_eq, ref_output, (hagree c).1, (hagree c).2.1, (hagree c).2.2.1,
      (hagree c).2.2.2]
  · rw [(h c).2.1, Cert.ReferenceIdeal.Read.val_main_v22_eq, ref_weights, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
